-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1048576x32 : Shape := ⟨2, ![1048576, 32]⟩
abbrev S_ : Shape := ⟨0, ![]⟩
abbrev S1048576 : Shape := ⟨1, ![1048576]⟩
abbrev S1048576x1 : Shape := ⟨2, ![1048576, 1]⟩
abbrev S524288x32 : Shape := ⟨2, ![524288, 32]⟩
abbrev S524288 : Shape := ⟨1, ![524288]⟩
abbrev S524288x1 : Shape := ⟨2, ![524288, 1]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 99
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1048576x32, .f32⟩
  | .hbm, ⟨4, _⟩ => ⟨S1048576x32, .f32⟩
  | .hbm, ⟨5, _⟩ => ⟨S_, .f32⟩
  | .hbm, ⟨6, _⟩ => ⟨S1048576, .f32⟩
  | .hbm, ⟨7, _⟩ => ⟨S1048576x1, .f32⟩
  | .hbm, ⟨8, _⟩ => ⟨S_, .f32⟩
  | .hbm, ⟨9, _⟩ => ⟨S1048576x1, .f32⟩
  | .hbm, ⟨10, _⟩ => ⟨S1048576x1, .i1⟩
  | .hbm, ⟨11, _⟩ => ⟨S_, .f32⟩
  | .hbm, ⟨12, _⟩ => ⟨S_, .f32⟩
  | .hbm, ⟨13, _⟩ => ⟨S1048576x1, .f32⟩
  | .hbm, ⟨14, _⟩ => ⟨S1048576x1, .f32⟩
  | .hbm, ⟨15, _⟩ => ⟨S1048576x1, .f32⟩
  | .hbm, ⟨16, _⟩ => ⟨S_, .f32⟩
  | .hbm, ⟨17, _⟩ => ⟨S_, .f32⟩
  | .hbm, ⟨18, _⟩ => ⟨S1048576x1, .f32⟩
  | .hbm, ⟨19, _⟩ => ⟨S1048576x1, .f32⟩
  | .hbm, ⟨20, _⟩ => ⟨S1048576x1, .f32⟩
  | .hbm, ⟨21, _⟩ => ⟨S_, .f32⟩
  | .hbm, ⟨22, _⟩ => ⟨S1048576x1, .f32⟩
  | .hbm, ⟨23, _⟩ => ⟨S1048576x1, .f32⟩
  | .hbm, ⟨24, _⟩ => ⟨S_, .f32⟩
  | .hbm, ⟨25, _⟩ => ⟨S1048576x1, .f32⟩
  | .hbm, ⟨26, _⟩ => ⟨S1048576x1, .f32⟩
  | .hbm, ⟨27, _⟩ => ⟨S1048576x1, .f32⟩
  | .hbm, ⟨28, _⟩ => ⟨S1048576x32, .f32⟩
  | .hbm, ⟨29, _⟩ => ⟨S1048576x32, .f32⟩
  | .hbm, ⟨30, _⟩ => ⟨S1048576x32, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S1048576x32, .f32⟩
  | .hbm, ⟨35, _⟩ => ⟨S1048576x32, .f32⟩
  | .hbm, ⟨36, _⟩ => ⟨S_, .f32⟩
  | .hbm, ⟨37, _⟩ => ⟨S1048576x32, .f32⟩
  | .hbm, ⟨38, _⟩ => ⟨S1048576x32, .f32⟩
  | .hbm, ⟨39, _⟩ => ⟨S1048576x32, .f32⟩
  | .hbm, ⟨40, _⟩ => ⟨S1048576x32, .f32⟩
  | .hbm, ⟨41, _⟩ => ⟨S_, .f32⟩
  | .hbm, ⟨42, _⟩ => ⟨S1048576x1, .f32⟩
  | .hbm, ⟨43, _⟩ => ⟨S1048576x1, .i1⟩
  | .hbm, ⟨44, _⟩ => ⟨S_, .f32⟩
  | .hbm, ⟨45, _⟩ => ⟨S1048576x32, .f32⟩
  | .hbm, ⟨46, _⟩ => ⟨S1048576x32, .i1⟩
  | .hbm, ⟨47, _⟩ => ⟨S1048576x32, .f32⟩
  | .hbm, ⟨48, _⟩ => ⟨S8192x4096, .f32⟩
  | .hbm, ⟨49, _⟩ => ⟨S524288x32, .f32⟩
  | .hbm, ⟨50, _⟩ => ⟨S524288x32, .f32⟩
  | .hbm, ⟨51, _⟩ => ⟨S_, .f32⟩
  | .hbm, ⟨52, _⟩ => ⟨S524288, .f32⟩
  | .hbm, ⟨53, _⟩ => ⟨S524288x1, .f32⟩
  | .hbm, ⟨54, _⟩ => ⟨S_, .f32⟩
  | .hbm, ⟨55, _⟩ => ⟨S524288x1, .f32⟩
  | .hbm, ⟨56, _⟩ => ⟨S524288x1, .i1⟩
  | .hbm, ⟨57, _⟩ => ⟨S_, .f32⟩
  | .hbm, ⟨58, _⟩ => ⟨S_, .f32⟩
  | .hbm, ⟨59, _⟩ => ⟨S524288x1, .f32⟩
  | .hbm, ⟨60, _⟩ => ⟨S524288x1, .f32⟩
  | .hbm, ⟨61, _⟩ => ⟨S524288x1, .f32⟩
  | .hbm, ⟨62, _⟩ => ⟨S_, .f32⟩
  | .hbm, ⟨63, _⟩ => ⟨S_, .f32⟩
  | .hbm, ⟨64, _⟩ => ⟨S524288x1, .f32⟩
  | .hbm, ⟨65, _⟩ => ⟨S524288x1, .f32⟩
  | .hbm, ⟨66, _⟩ => ⟨S524288x1, .f32⟩
  | .hbm, ⟨67, _⟩ => ⟨S_, .f32⟩
  | .hbm, ⟨68, _⟩ => ⟨S524288x1, .f32⟩
  | .hbm, ⟨69, _⟩ => ⟨S524288x1, .f32⟩
  | .hbm, ⟨70, _⟩ => ⟨S_, .f32⟩
  | .hbm, ⟨71, _⟩ => ⟨S524288x1, .f32⟩
  | .hbm, ⟨72, _⟩ => ⟨S524288x1, .f32⟩
  | .hbm, ⟨73, _⟩ => ⟨S524288x1, .f32⟩
  | .hbm, ⟨74, _⟩ => ⟨S524288x32, .f32⟩
  | .hbm, ⟨75, _⟩ => ⟨S524288x32, .f32⟩
  | .hbm, ⟨76, _⟩ => ⟨S524288x32, .f32⟩
  | .hbm, ⟨77, _⟩ => ⟨S_, .i32⟩
  | .hbm, ⟨78, _⟩ => ⟨S_, .i32⟩
  | .hbm, ⟨79, _⟩ => ⟨S_, .f32⟩
  | .hbm, ⟨80, _⟩ => ⟨S524288x32, .f32⟩
  | .hbm, ⟨81, _⟩ => ⟨S524288x32, .f32⟩
  | .hbm, ⟨82, _⟩ => ⟨S_, .f32⟩
  | .hbm, ⟨83, _⟩ => ⟨S524288x32, .f32⟩
  | .hbm, ⟨84, _⟩ => ⟨S524288x32, .f32⟩
  | .hbm, ⟨85, _⟩ => ⟨S524288x32, .f32⟩
  | .hbm, ⟨86, _⟩ => ⟨S524288x32, .f32⟩
  | .hbm, ⟨87, _⟩ => ⟨S_, .f32⟩
  | .hbm, ⟨88, _⟩ => ⟨S524288x1, .f32⟩
  | .hbm, ⟨89, _⟩ => ⟨S524288x1, .i1⟩
  | .hbm, ⟨90, _⟩ => ⟨S_, .f32⟩
  | .hbm, ⟨91, _⟩ => ⟨S524288x32, .f32⟩
  | .hbm, ⟨92, _⟩ => ⟨S524288x32, .i1⟩
  | .hbm, ⟨93, _⟩ => ⟨S524288x32, .f32⟩
  | .hbm, ⟨94, _⟩ => ⟨S4096x4096, .f32⟩
  | .hbm, ⟨95, _⟩ => ⟨S8192x4096, .bf16⟩
  | .hbm, ⟨96, _⟩ => ⟨S4096x4096, .bf16⟩
  | .hbm, ⟨97, _⟩ => ⟨S1x4096, .f32⟩
  | .hbm, ⟨98, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_c_5 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_call3_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_call4_v0 : Ref sig .tc := ⟨.hbm, 58, rfl⟩
abbrev main_call4_v1 : Ref sig .tc := ⟨.hbm, 59, rfl⟩
abbrev main_v34 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_v41 : Ref sig .tc := ⟨.hbm, 69, rfl⟩
abbrev main_cst_13 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_14 : Ref sig .tc := ⟨.hbm, 77, rfl⟩
abbrev main_c_15 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_16 : Ref sig .tc := ⟨.hbm, 87, rfl⟩
abbrev main_v51 : Ref sig .tc := ⟨.hbm, 88, rfl⟩
abbrev main_v52 : Ref sig .tc := ⟨.hbm, 89, rfl⟩
abbrev main_cst_17 : Ref sig .tc := ⟨.hbm, 90, rfl⟩
abbrev main_v53 : Ref sig .tc := ⟨.hbm, 91, rfl⟩
abbrev main_call7_v0 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8192x4096_S1048576x32 : S8192x4096.ShapeCasts S1048576x32
  reducesTo_S1048576x32_S1048576_d1 : S1048576x32.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x32_0_1 : S1048576x1.BroadcastsInDim S1048576x32 (![0, 1] : Fin 2 → Fin S1048576x32.rank)
  bcast_S_S1048576x32 : S_.BroadcastsInDim S1048576x32 (![] : Fin 0 → Fin S1048576x32.rank)
  shapeCasts_S1048576x32_S8192x4096 : S1048576x32.ShapeCasts S8192x4096
  shapeCasts_S4096x4096_S524288x32 : S4096x4096.ShapeCasts S524288x32
  reducesTo_S524288x32_S524288_d1 : S524288x32.ReducesTo [1] S524288
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x32_0_1 : S524288x1.BroadcastsInDim S524288x32 (![0, 1] : Fin 2 → Fin S524288x32.rank)
  bcast_S_S524288x32 : S_.BroadcastsInDim S524288x32 (![] : Fin 0 → Fin S524288x32.rank)
  shapeCasts_S524288x32_S4096x4096 : S524288x32.ShapeCasts S4096x4096
  bitsLt_bf16_f32 : FTy.bits .bf16 < FTy.bits .f32
  shapeCasts_S4096_S1x4096 : S4096.ShapeCasts S1x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v56) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1048576x32 : Shape := ⟨2, ![1048576, 32]⟩
abbrev S_ : Shape := ⟨0, ![]⟩
abbrev S1048576 : Shape := ⟨1, ![1048576]⟩
abbrev S1048576x1 : Shape := ⟨2, ![1048576, 1]⟩
abbrev S524288x32 : Shape := ⟨2, ![524288, 32]⟩
abbrev S524288 : Shape := ⟨1, ![524288]⟩
abbrev S524288x1 : Shape := ⟨2, ![524288, 1]⟩
abbrev S1x4096 : Shape := ⟨2, ![1, 4096]⟩

abbrev nBuf : Space → Nat
  | .hbm => 100
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1048576x32, .f32⟩
  | .hbm, ⟨4, _⟩ => ⟨S1048576x32, .f32⟩
  | .hbm, ⟨5, _⟩ => ⟨S_, .f32⟩
  | .hbm, ⟨6, _⟩ => ⟨S1048576, .f32⟩
  | .hbm, ⟨7, _⟩ => ⟨S1048576x1, .f32⟩
  | .hbm, ⟨8, _⟩ => ⟨S_, .f32⟩
  | .hbm, ⟨9, _⟩ => ⟨S1048576x1, .f32⟩
  | .hbm, ⟨10, _⟩ => ⟨S1048576x1, .i1⟩
  | .hbm, ⟨11, _⟩ => ⟨S_, .f32⟩
  | .hbm, ⟨12, _⟩ => ⟨S_, .f32⟩
  | .hbm, ⟨13, _⟩ => ⟨S1048576x1, .f32⟩
  | .hbm, ⟨14, _⟩ => ⟨S1048576x1, .f32⟩
  | .hbm, ⟨15, _⟩ => ⟨S1048576x1, .f32⟩
  | .hbm, ⟨16, _⟩ => ⟨S_, .f32⟩
  | .hbm, ⟨17, _⟩ => ⟨S_, .f32⟩
  | .hbm, ⟨18, _⟩ => ⟨S1048576x1, .f32⟩
  | .hbm, ⟨19, _⟩ => ⟨S1048576x1, .f32⟩
  | .hbm, ⟨20, _⟩ => ⟨S1048576x1, .f32⟩
  | .hbm, ⟨21, _⟩ => ⟨S_, .f32⟩
  | .hbm, ⟨22, _⟩ => ⟨S1048576x1, .f32⟩
  | .hbm, ⟨23, _⟩ => ⟨S1048576x1, .f32⟩
  | .hbm, ⟨24, _⟩ => ⟨S_, .f32⟩
  | .hbm, ⟨25, _⟩ => ⟨S1048576x1, .f32⟩
  | .hbm, ⟨26, _⟩ => ⟨S1048576x1, .f32⟩
  | .hbm, ⟨27, _⟩ => ⟨S1048576x1, .f32⟩
  | .hbm, ⟨28, _⟩ => ⟨S1048576x32, .f32⟩
  | .hbm, ⟨29, _⟩ => ⟨S1048576x32, .f32⟩
  | .hbm, ⟨30, _⟩ => ⟨S1048576x32, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S1048576x32, .f32⟩
  | .hbm, ⟨35, _⟩ => ⟨S1048576x32, .f32⟩
  | .hbm, ⟨36, _⟩ => ⟨S_, .f32⟩
  | .hbm, ⟨37, _⟩ => ⟨S1048576x32, .f32⟩
  | .hbm, ⟨38, _⟩ => ⟨S1048576x32, .f32⟩
  | .hbm, ⟨39, _⟩ => ⟨S1048576x32, .f32⟩
  | .hbm, ⟨40, _⟩ => ⟨S1048576x32, .f32⟩
  | .hbm, ⟨41, _⟩ => ⟨S_, .f32⟩
  | .hbm, ⟨42, _⟩ => ⟨S1048576x1, .f32⟩
  | .hbm, ⟨43, _⟩ => ⟨S1048576x1, .i1⟩
  | .hbm, ⟨44, _⟩ => ⟨S_, .f32⟩
  | .hbm, ⟨45, _⟩ => ⟨S1048576x32, .f32⟩
  | .hbm, ⟨46, _⟩ => ⟨S1048576x32, .i1⟩
  | .hbm, ⟨47, _⟩ => ⟨S1048576x32, .f32⟩
  | .hbm, ⟨48, _⟩ => ⟨S8192x4096, .f32⟩
  | .hbm, ⟨49, _⟩ => ⟨S524288x32, .f32⟩
  | .hbm, ⟨50, _⟩ => ⟨S524288x32, .f32⟩
  | .hbm, ⟨51, _⟩ => ⟨S_, .f32⟩
  | .hbm, ⟨52, _⟩ => ⟨S524288, .f32⟩
  | .hbm, ⟨53, _⟩ => ⟨S524288x1, .f32⟩
  | .hbm, ⟨54, _⟩ => ⟨S_, .f32⟩
  | .hbm, ⟨55, _⟩ => ⟨S524288x1, .f32⟩
  | .hbm, ⟨56, _⟩ => ⟨S524288x1, .i1⟩
  | .hbm, ⟨57, _⟩ => ⟨S_, .f32⟩
  | .hbm, ⟨58, _⟩ => ⟨S_, .f32⟩
  | .hbm, ⟨59, _⟩ => ⟨S524288x1, .f32⟩
  | .hbm, ⟨60, _⟩ => ⟨S524288x1, .f32⟩
  | .hbm, ⟨61, _⟩ => ⟨S524288x1, .f32⟩
  | .hbm, ⟨62, _⟩ => ⟨S_, .f32⟩
  | .hbm, ⟨63, _⟩ => ⟨S_, .f32⟩
  | .hbm, ⟨64, _⟩ => ⟨S524288x1, .f32⟩
  | .hbm, ⟨65, _⟩ => ⟨S524288x1, .f32⟩
  | .hbm, ⟨66, _⟩ => ⟨S524288x1, .f32⟩
  | .hbm, ⟨67, _⟩ => ⟨S_, .f32⟩
  | .hbm, ⟨68, _⟩ => ⟨S524288x1, .f32⟩
  | .hbm, ⟨69, _⟩ => ⟨S524288x1, .f32⟩
  | .hbm, ⟨70, _⟩ => ⟨S_, .f32⟩
  | .hbm, ⟨71, _⟩ => ⟨S524288x1, .f32⟩
  | .hbm, ⟨72, _⟩ => ⟨S524288x1, .f32⟩
  | .hbm, ⟨73, _⟩ => ⟨S524288x1, .f32⟩
  | .hbm, ⟨74, _⟩ => ⟨S524288x32, .f32⟩
  | .hbm, ⟨75, _⟩ => ⟨S524288x32, .f32⟩
  | .hbm, ⟨76, _⟩ => ⟨S524288x32, .f32⟩
  | .hbm, ⟨77, _⟩ => ⟨S_, .i32⟩
  | .hbm, ⟨78, _⟩ => ⟨S_, .i32⟩
  | .hbm, ⟨79, _⟩ => ⟨S_, .f32⟩
  | .hbm, ⟨80, _⟩ => ⟨S524288x32, .f32⟩
  | .hbm, ⟨81, _⟩ => ⟨S524288x32, .f32⟩
  | .hbm, ⟨82, _⟩ => ⟨S_, .f32⟩
  | .hbm, ⟨83, _⟩ => ⟨S524288x32, .f32⟩
  | .hbm, ⟨84, _⟩ => ⟨S524288x32, .f32⟩
  | .hbm, ⟨85, _⟩ => ⟨S524288x32, .f32⟩
  | .hbm, ⟨86, _⟩ => ⟨S524288x32, .f32⟩
  | .hbm, ⟨87, _⟩ => ⟨S_, .f32⟩
  | .hbm, ⟨88, _⟩ => ⟨S524288x1, .f32⟩
  | .hbm, ⟨89, _⟩ => ⟨S524288x1, .i1⟩
  | .hbm, ⟨90, _⟩ => ⟨S_, .f32⟩
  | .hbm, ⟨91, _⟩ => ⟨S524288x32, .f32⟩
  | .hbm, ⟨92, _⟩ => ⟨S524288x32, .i1⟩
  | .hbm, ⟨93, _⟩ => ⟨S524288x32, .f32⟩
  | .hbm, ⟨94, _⟩ => ⟨S4096x4096, .f32⟩
  | .hbm, ⟨95, _⟩ => ⟨S4096x4096, .f32⟩
  | .hbm, ⟨96, _⟩ => ⟨S8192x4096, .f32⟩
  | .hbm, ⟨97, _⟩ => ⟨S1x4096, .f32⟩
  | .hbm, ⟨98, _⟩ => ⟨S8192x4096, .f32⟩
  | .hbm, ⟨99, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_c_5 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_call3_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_call4_v0 : Ref sig .tc := ⟨.hbm, 58, rfl⟩
abbrev main_call4_v1 : Ref sig .tc := ⟨.hbm, 59, rfl⟩
abbrev main_v34 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_v41 : Ref sig .tc := ⟨.hbm, 69, rfl⟩
abbrev main_cst_13 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_14 : Ref sig .tc := ⟨.hbm, 77, rfl⟩
abbrev main_c_15 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_16 : Ref sig .tc := ⟨.hbm, 87, rfl⟩
abbrev main_v51 : Ref sig .tc := ⟨.hbm, 88, rfl⟩
abbrev main_v52 : Ref sig .tc := ⟨.hbm, 89, rfl⟩
abbrev main_cst_17 : Ref sig .tc := ⟨.hbm, 90, rfl⟩
abbrev main_v53 : Ref sig .tc := ⟨.hbm, 91, rfl⟩
abbrev main_call7_v0 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩

abbrev nD : Nat := 1
abbrev τ : Topo := Topo.v7x

variable {F : FTy → Type} [FloatOps F]

class Facts₀ : Prop where
  shapeCasts_S8192x4096_S1048576x32 : S8192x4096.ShapeCasts S1048576x32
  reducesTo_S1048576x32_S1048576_d1 : S1048576x32.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x32_0_1 : S1048576x1.BroadcastsInDim S1048576x32 (![0, 1] : Fin 2 → Fin S1048576x32.rank)
  bcast_S_S1048576x32 : S_.BroadcastsInDim S1048576x32 (![] : Fin 0 → Fin S1048576x32.rank)
  shapeCasts_S1048576x32_S8192x4096 : S1048576x32.ShapeCasts S8192x4096
  shapeCasts_S4096x4096_S524288x32 : S4096x4096.ShapeCasts S524288x32
  reducesTo_S524288x32_S524288_d1 : S524288x32.ReducesTo [1] S524288
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x32_0_1 : S524288x1.BroadcastsInDim S524288x32 (![0, 1] : Fin 2 → Fin S524288x32.rank)
  bcast_S_S524288x32 : S_.BroadcastsInDim S524288x32 (![] : Fin 0 → Fin S524288x32.rank)
  shapeCasts_S524288x32_S4096x4096 : S524288x32.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.RefTail.lean ====
/-
  The reference's result over its two quantised arrays.

  After quantising `x` and `weight` the reference transposes the quantised weights, takes the matrix product with the
  quantised activations, broadcasts the bias over the rows and adds it. Its result buffer therefore holds those five
  operations applied to whatever its quantisation chain left in the two quantised buffers and to the bias as launched:
  read the result back as the composed term of the program's operations, read the two quantised buffers back the same
  way, and the first term is the five operations around the other two. None of the program's operations writes one of
  its arguments, so each argument ends as launched.
-/
import proofs.«166685_j4698694222253_2_alg».proof.Proof.RefRun

noncomputable section

namespace Cert.Bfp

open Idealize.ShloMosaic Idealize.ShloMosaic.StableHlo
open Cert.ReferenceIdeal Cert.ReferenceIdeal.Gen Cert.ReferenceIdeal.ValueP

variable {F : FTy → Type} [FloatOps F]

/-- The reference's result is its product-plus-bias tail over its own quantised arrays. -/
theorem ref_result (W' : Valuation τ sig (Elt F)) :
    after ops W' (Proc.devRef .tc main_v60)
      = addf
          (Host.dotGeneral dot_S8192x4096_S4096x4096_S8192x4096_1_0_0_1_n_n none
            (after ops W' (Proc.devRef .tc main_v27))
            (transpose S4096x4096 [1, 0] (after ops W' (Proc.devRef .tc main_v55)) transposes_S4096x4096_S4096x4096_1_0))
          (broadcastInDim S8192x4096 ![0, 1] bcast_S1x4096_S8192x4096_0_1
            (broadcastInDim S1x4096 ![1] bcast_S4096_S1x4096_1 (W' (Proc.devRef .tc main_arg2)))) := by
  after_results_simp <;> rfl

/-- No operation of the reference writes `x`. -/
theorem ref_arg0 (W' : Valuation τ sig (Elt F)) :
    after ops W' (Proc.devRef .tc main_arg0) = W' (Proc.devRef .tc main_arg0) := by
  after_results_simp <;> rfl

/-- No operation of the reference writes `weight`. -/
theorem ref_arg1 (W' : Valuation τ sig (Elt F)) :
    after ops W' (Proc.devRef .tc main_arg1) = W' (Proc.devRef .tc main_arg1) := by
  after_results_simp <;> rfl

/-- No operation of the reference writes `bias`. -/
theorem ref_arg2 (W' : Valuation τ sig (Elt F)) :
    after ops W' (Proc.devRef .tc main_arg2) = W' (Proc.devRef .tc main_arg2) := by
  after_results_simp <;> rfl

end Cert.Bfp

end
-- ==== Proof.HostOps.lean ====
/-
  The kernel program's host operations before the call, as one line.

  The program quantises `x` and `weight` (each: regroup into groups of 32, the group's largest magnitude, its power-of-two
  scale, round, clip, rescale, mask the all-zero groups, regroup back), narrows both to bf16 and reshapes the bias to one
  row. Its text prints these operations in stretches, cut wherever a library function (where, round, clip) was outlined;
  the contents a buffer holds when the call is reached are the stretches run in order, that is, their concatenation run
  as one line.
-/
import proofs.«166685_j4698694222253_2_alg».proof.Proof.Gen.KernelIdeal.Launch

noncomputable section

namespace Cert.Bfp

open Idealize.ShloMosaic Idealize.ShloMosaic.StableHlo

variable {F : FTy → Type} [FloatOps F]

open Cert.KernelIdeal.Gen in
/-- Every host operation of the kernel program before the call, in order. -/
abbrev hostOps : List (HloOp Cert.KernelIdeal.τ Cert.KernelIdeal.sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

end Cert.Bfp

end
-- ==== Proof.QuantX.lean ====
/-
  The quantised activations are the same array in both programs.

  The reference and the kernel program quantise `x` by the same operations in the same order: the first ninety-two
  operations of the two texts coincide. So whatever that chain computes — a maximum over each group of 32, a logarithm,
  a floor, an exponential, a rounding, a clip, two selects — it computes the same function of `x` on both sides, and
  nothing about the chain has to be known: read each program's buffer back as the composed term of its operations and
  the two terms are one term. The chain is never opened.
-/
import proofs.«166685_j4698694222253_2_alg».proof.Proof.RefRun
import proofs.«166685_j4698694222253_2_alg».proof.Proof.HostOps

noncomputable section

namespace Cert.Bfp

open Idealize.ShloMosaic Idealize.ShloMosaic.StableHlo

variable {F : FTy → Type} [FloatOps F]

open Cert.KernelIdeal.Gen in
/-- From contents that agree on `x`, the reference's quantised activations (`main_v27` after its operations) and
    the kernel program's (`main_v27` after its host operations) are equal. -/
theorem quantized_x_same (W' : Valuation Cert.ReferenceIdeal.τ Cert.ReferenceIdeal.sig (Elt F))
    (W : Valuation Cert.KernelIdeal.τ Cert.KernelIdeal.sig (Elt F))
    (x : (⟨Cert.ReferenceIdeal.S8192x4096, .f32⟩ : BufTy).Contents (Elt F))
    (h' : W' (Proc.devRef .tc Cert.ReferenceIdeal.main_arg0) = x)
    (h : W (Proc.devRef .tc Cert.KernelIdeal.main_arg0) = x) :
    after Cert.ReferenceIdeal.ValueP.ops W' (Proc.devRef .tc Cert.ReferenceIdeal.main_v27)
      = after hostOps W (Proc.devRef .tc Cert.KernelIdeal.main_v27) := by
  simp only [hostOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rw [h', h]
  rfl

end Cert.Bfp

end
-- ==== Proof.QuantW.lean ====
/-
  The quantised weights are the same array in both programs.

  The reference and the kernel program quantise `weight` by the same operations in the same order: the first ninety-two
  operations of the two texts coincide. So whatever that chain computes — a maximum over each group of 32, a logarithm,
  a floor, an exponential, a rounding, a clip, two selects — it computes the same function of `weight` on both sides, and
  nothing about the chain has to be known: read each program's buffer back as the composed term of its operations and
  the two terms are one term. The chain is never opened.
-/
import proofs.«166685_j4698694222253_2_alg».proof.Proof.RefRun
import proofs.«166685_j4698694222253_2_alg».proof.Proof.HostOps

noncomputable section

namespace Cert.Bfp

open Idealize.ShloMosaic Idealize.ShloMosaic.StableHlo

variable {F : FTy → Type} [FloatOps F]

open Cert.KernelIdeal.Gen in
/-- From contents that agree on `weight`, the reference's quantised weights (`main_v55` after its operations) and
    the kernel program's (`main_v55` after its host operations) are equal. -/
theorem quantized_w_same (W' : Valuation Cert.ReferenceIdeal.τ Cert.ReferenceIdeal.sig (Elt F))
    (W : Valuation Cert.KernelIdeal.τ Cert.KernelIdeal.sig (Elt F))
    (w : (⟨Cert.ReferenceIdeal.S4096x4096, .f32⟩ : BufTy).Contents (Elt F))
    (h' : W' (Proc.devRef .tc Cert.ReferenceIdeal.main_arg1) = w)
    (h : W (Proc.devRef .tc Cert.KernelIdeal.main_arg1) = w) :
    after Cert.ReferenceIdeal.ValueP.ops W' (Proc.devRef .tc Cert.ReferenceIdeal.main_v55)
      = after hostOps W (Proc.devRef .tc Cert.KernelIdeal.main_v55) := by
  simp only [hostOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rw [h', h]
  rfl

end Cert.Bfp

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«166685_j4698694222253_2_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.RefTailValue.lean ====
/-
  The reference's last five operations, entry by entry.

  For any quantised activations `a` (8192 × 4096), quantised weights `w` (4096 × 4096) and bias vector `b` (4096), the
  reference computes `a · wᵀ + b`: the weights are transposed, multiplied on the right of the activations, and the bias,
  made a row and then repeated over the 8192 rows, is added. Entry (P, Q) of the product is Σ_k a[P, k] · wᵀ[k, Q], and
  wᵀ[k, Q] is w[Q, k]; entry (P, Q) of the repeated bias is b[Q], which is also entry (0, Q) of the bias reshaped to a row.
-/
import proofs.«166685_j4698694222253_2_alg».proof.Proof.Gen.ReferenceIdeal
import proofs.«166685_j4698694222253_2_alg».proof.Proof.LibDenseLayers
import Idealize.ShloMosaic.Lib.ValueLayout

noncomputable section

namespace Cert.Bfp

open Idealize.ShloMosaic Idealize.ShloMosaic.ValueIdx
open Cert.ReferenceIdeal Cert.ReferenceIdeal.Gen

/-- `a · wᵀ + b` at entry (P, Q): the dot product of row P of `a` with row Q of `w`, plus the bias entry Q. -/
theorem ref_tail_apply (a : FVec Ideal S8192x4096 .f32) (w : FVec Ideal S4096x4096 .f32) (b : FVec Ideal S4096 .f32)
    (hc : (⟨1, ![4096]⟩ : Shape).ShapeCasts ⟨2, ![1, 4096]⟩) (P : Fin 8192) (Q : Fin 4096) :
    addf
        (Host.dotGeneral dot_S8192x4096_S4096x4096_S8192x4096_1_0_0_1_n_n none a
          (transpose S4096x4096 [1, 0] w transposes_S4096x4096_S4096x4096_1_0))
        (broadcastInDim S8192x4096 ![0, 1] bcast_S1x4096_S8192x4096_0_1 (broadcastInDim S1x4096 ![1] bcast_S4096_S1x4096_1 b))
        (ix2 P Q)
      = (∑ k : Fin 4096, a (ix2 P k) * w (ix2 Q k)) + shapeCast ⟨2, ![1, 4096]⟩ b hc (ix2 (0 : Fin 1) Q) := by
  show Host.dotGeneral dot_S8192x4096_S4096x4096_S8192x4096_1_0_0_1_n_n none a
        (transpose S4096x4096 [1, 0] w transposes_S4096x4096_S4096x4096_1_0) (ix2 P Q)
      + broadcastInDim S8192x4096 ![0, 1] bcast_S1x4096_S8192x4096_0_1 (broadcastInDim S1x4096 ![1] bcast_S4096_S1x4096_1 b) (ix2 P Q) = _
  rw [Cert.Layers.bias_bcast_apply (M := 8192) (N := 4096) b bcast_S4096_S1x4096_1 bcast_S1x4096_S8192x4096_0_1 hc P Q]
  rw [Cert.Layers.dotGeneral_eq_project (M := 8192) (K := 4096) (N := 4096) dot_S8192x4096_S4096x4096_S8192x4096_1_0_0_1_n_n rfl none a
    (transpose S4096x4096 [1, 0] w transposes_S4096x4096_S4096x4096_1_0)]
  rw [Cert.Layers.project_apply]
  refine congrArg (fun s : EReal => s + shapeCast ⟨2, ![1, 4096]⟩ b hc (ix2 (0 : Fin 1) Q)) (Finset.sum_congr rfl fun k _ => ?_)
  rw [transpose_ix2_apply (a := 4096) (b := 4096) w transposes_S4096x4096_S4096x4096_1_0 k Q]

end Cert.Bfp

end
-- ==== Proof.KernelWindows.lean ====
/-
  The three arrays the call's input windows stage.

  When the call is reached, its first operand is the quantised activations narrowed to bf16, its second the quantised
  weights narrowed to bf16, and its third the bias reshaped from a vector of 4096 entries to one row of 4096: each is the
  last host operation that writes it, applied to what the host operations before it left in the buffer it reads.
-/
import proofs.«166685_j4698694222253_2_alg».proof.Proof.Gen.KernelIdeal.Frame.Runs

noncomputable section

namespace Cert.Bfp

open Idealize.ShloMosaic Idealize.ShloMosaic.StableHlo Idealize.ShloMosaic.TcCoe
open Cert.KernelIdeal Cert.KernelIdeal.Gen

variable {F : FTy → Type} [FloatOps F]
variable (m : (ℓ : Loc nD τ sig) → Buf (Elt F) ℓ)

/-- The first window's array: the quantised activations, narrowed to bf16. -/
theorem window_x (c : Dev nD) :
    V m c main_v56 = truncf .bf16 (V m c main_v27) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

/-- The second window's array: the quantised weights, narrowed to bf16. -/
theorem window_w (c : Dev nD) :
    V m c main_v57 = truncf .bf16 (V m c main_v55) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

/-- The third window's array: the bias as launched, reshaped to one row. -/
theorem window_b (c : Dev nD) :
    V m c main_v58 = shapeCast S1x4096 (m ((c : Thread nD τ).loc main_arg2)) shapeCasts_S4096_S1x4096 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp <;> rfl

end Cert.Bfp

end
-- ==== Proof.LibRowsDot.lean ====
/-
  A matrix product with the right operand given by rows.

  For a left operand of M rows by K columns and a right operand of N rows by K columns, contracted along the
  column axis of both (no batch axis), the product has entry (p, q) equal to the dot product of row p of the left
  with row q of the right:  Σ_k l[p, k] · r[q, k].  Over the extended reals the matrix unit's product into a zero
  accumulator is exactly this finite sum: no rounding, and no order of accumulation to speak of.
-/
import Idealize.ShloMosaic.Lib.ValueIdx
import Idealize.ShloMosaic.PureOps.Ideal.Laws

noncomputable section

namespace Cert.Lib

open Idealize.ShloMosaic Idealize.ShloMosaic.ValueIdx

variable {M K N : Nat}

/-- The left operand's row coordinate is the result's row. -/
theorem rowsDot_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem rowsDot_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right operand's row coordinate is the result's column. -/
theorem rowsDot_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rowsDot_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction sum of a rows-by-rows product, re-indexed by the column position k < K. -/
theorem rowsDot_contr_sum (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact rowsDot_lhs_row _ _
      | ⟨1, _⟩ => exact (rowsDot_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rowsDot_rhs_row _ _
      | ⟨1, _⟩ => exact (rowsDot_rhs_col _ _).trans hk)
  rw [el, er]

/-- The matrix unit's rows-by-rows product into the zero accumulator, read at (p, q): Σ_k l[p, k] · r[q, k]. -/
theorem matmul_rowsDot_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply]
  exact rowsDot_contr_sum l r p q

/-- The host's dot_general with the same dimension numbers, read at (p, q): the same sum. -/
theorem dotGeneral_rowsDot_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q) = ∑ k : Fin K, l (ix2 p k) * r (ix2 q k) := by
  rw [Ideal.dotGeneral_apply]
  exact rowsDot_contr_sum l r p q

end Cert.Lib

end
-- ==== Proof.KernelBody.lean ====
/-
  The kernel body's two stored values, entry by entry, over the extended reals.

  At the first chunk of a run the body stores the bias row broadcast over the block's 1024 rows: entry (p, q) is the
  row's entry q. At every chunk it stores what the block held plus the product of the chunk's two operands, the left
  one 1024 rows by 512 columns and the right one 2048 rows by 512 columns, contracted along the columns of both into a
  zero accumulator: entry (p, q) grows by the dot product of row p of the left with row q of the right,
  Σ_l a[p, l] · b[q, l]. The casts in between keep the shape and are the identity.
-/
import proofs.«166685_j4698694222253_2_alg».proof.Proof.Gen.KernelIdeal.Skeleton
import proofs.«166685_j4698694222253_2_alg».proof.Proof.LibRowsDot
import Idealize.ShloMosaic.Lib.ValueLayout
import Idealize.ShloMosaic.Lib.Pipeline.Value

noncomputable section

namespace Cert.Bfp

open Idealize.ShloMosaic Idealize.ShloMosaic.ValueIdx
open Cert.KernelIdeal Cert.KernelIdeal.Gen

/-- The bias row broadcast over the block's rows: entry (p, q) is the row's entry q. -/
theorem bias_rows_apply (v : FVec Ideal S1x2048 .f32) (p : Fin 1024) (q : Fin 2048) :
    k0_pay1 (F := Ideal) v (ix2 p q) = v (ix2 (0 : Fin 1) q) := by
  unfold k0_pay1
  show broadcastTo S1024x2048 (shapeCast S1x2048 (shapeCast S1x2048 v shapeCasts_S1x2048_S1x2048) shapeCasts_S1x2048_S1x2048)
      broadcasts_S1x2048_S1024x2048 (ix2 p q) = _
  rw [shapeCast_self, shapeCast_self]
  exact broadcastTo_1b_ab_apply v broadcasts_S1x2048_S1024x2048 p q

/-- One chunk's update: what the block held plus the rows-by-rows product of the chunk's operands. -/
theorem chunk_update_apply (acc : FVec Ideal S1024x2048 .f32) (a : FVec Ideal S1024x512 .bf16) (b : FVec Ideal S2048x512 .bf16)
    (p : Fin 1024) (q : Fin 2048) :
    k0_pay2 (F := Ideal) acc a b (ix2 p q) = acc (ix2 p q) + ∑ l : Fin 512, a (ix2 p l) * b (ix2 q l) := by
  unfold k0_pay2
  show addf (shapeCast S1024x2048 acc shapeCasts_S1024x2048_S1024x2048)
      (matmul dot_S1024x512_S2048x512_S1024x2048_1_1_0_0_n_n none (shapeCast S1024x512 a shapeCasts_S1024x512_S1024x512)
        (shapeCast S2048x512 b shapeCasts_S2048x512_S2048x512) (constant S1024x2048 .f32 0x00000000#32)) (ix2 p q) = _
  rw [shapeCast_self, shapeCast_self, shapeCast_self]
  refine congrArg (fun s => acc (ix2 p q) + s) ?_
  exact Cert.Lib.matmul_rowsDot_zero_apply (M := 1024) (K := 512) (N := 2048) (φ₁ := .bf16) (φ₂ := .bf16) none a b p q

end Cert.Bfp

end
-- ==== Proof.LibNatIndexed.lean ====
/-
  A rank-2 array read at two natural numbers.

  An array of shape [a, b] is a function of indices whose coordinates carry their bounds. Arithmetic on positions — a
  row of a block is the block's first row plus an offset, a column of a chunk is the chunk's first column plus an
  offset — is plainer on bare natural numbers, so here the array is extended to all pairs of naturals by zero outside
  the shape. Inside the shape the extension is the array.
-/
import Idealize.ShloMosaic.Lib.ValueIdx

noncomputable section

namespace Cert.Lib

open Idealize.ShloMosaic Idealize.ShloMosaic.ValueIdx

/-- The array `X` of shape [a, b] at row `r` and column `k`, and zero when `(r, k)` is outside the shape. -/
def nat2 {a b : Nat} {α : Type} [Zero α] (X : (⟨2, ![a, b]⟩ : Shape).Idx → α) (r k : Nat) : α :=
  if h : r < a ∧ k < b then X (ix2 ⟨r, h.1⟩ ⟨k, h.2⟩) else 0

/-- Inside the shape the extension is the array. -/
theorem nat2_of_lt {a b : Nat} {α : Type} [Zero α] (X : (⟨2, ![a, b]⟩ : Shape).Idx → α) {r k : Nat} (hr : r < a) (hk : k < b) :
    nat2 X r k = X (ix2 ⟨r, hr⟩ ⟨k, hk⟩) := by
  unfold nat2
  rw [dif_pos ⟨hr, hk⟩]

/-- The array at an index is its extension at the index's two coordinates. -/
theorem nat2_val {a b : Nat} {α : Type} [Zero α] (X : (⟨2, ![a, b]⟩ : Shape).Idx → α) (p : Fin a) (q : Fin b) :
    nat2 X p.val q.val = X (ix2 p q) :=
  nat2_of_lt X p.isLt q.isLt

end Cert.Lib

end
-- ==== Proof.KernelBlocks.lean ====
/-
  Which part of each staged array a grid point reads.

  The grid has 8 × 2 × 8 points; point number t (row-major) has row-block i = t / 16, column-block j = (t / 8) % 2 and
  chunk k = t % 8. At that point the body sees rows 1024·i … 1024·i + 1023 and columns 512·k … 512·k + 511 of the
  quantised activations, rows 2048·j … 2048·j + 2047 and the same columns of the quantised weights, and columns
  2048·j … 2048·j + 2047 of the one bias row: an entry of a block is the array's entry at block index × block size plus
  the position inside the block, on each axis. This is a fact about the windows alone, so it is stated first for an
  arbitrary array in the window's place, and then for the arrays the host operations leave there.
-/
import proofs.«166685_j4698694222253_2_alg».proof.Proof.Gen.KernelIdeal.Frame.Runs
import proofs.«166685_j4698694222253_2_alg».proof.Proof.LibNatIndexed
import Idealize.ShloMosaic.Lib.ValueIdx

noncomputable section

namespace Cert.Bfp

open Idealize.ShloMosaic Idealize.ShloMosaic.ValueIdx Idealize.ShloMosaic.TcCoe
open Cert.KernelIdeal Cert.KernelIdeal.Gen

/-- The activations' window at point t: row-block t / 16, chunk t % 8. -/
theorem index_x : ∀ t : Fin cfg0.N, win0_0.index t (0 : Fin 2) = t.val / 16 ∧ win0_0.index t (1 : Fin 2) = t.val % 8 :=
  (by decide +kernel : ∀ t : Fin grid0.N, _)

/-- The weights' window at point t: column-block (t / 8) % 2, chunk t % 8. -/
theorem index_w : ∀ t : Fin cfg0.N, win0_1.index t (0 : Fin 2) = t.val / 8 % 2 ∧ win0_1.index t (1 : Fin 2) = t.val % 8 :=
  (by decide +kernel : ∀ t : Fin grid0.N, _)

/-- The bias window at point t: the one row, column-block (t / 8) % 2. -/
theorem index_b : ∀ t : Fin cfg0.N, win0_2.index t (0 : Fin 2) = 0 ∧ win0_2.index t (1 : Fin 2) = t.val / 8 % 2 :=
  (by decide +kernel : ∀ t : Fin grid0.N, _)

/-! ## The windows, over an arbitrary array -/

/-- Entry (p, l) of block t of an 8192 × 4096 array read through the activations' window. -/
theorem read_x (X : (⟨2, ![8192, 4096]⟩ : Shape).Idx → EReal) (t : Fin cfg0.N) (p : Fin 1024) (l : Fin 512) :
    ((cfg0.win 0).blk t).view.read (Elt Ideal) X (ix2 p l)
      = Cert.Lib.nat2 X (1024 * (t.val / 16) + p.val) (512 * (t.val % 8) + l.val) := by
  have ht : t.val < 128 := lt_of_lt_of_eq t.isLt (show cfg0.N = 128 from N_0)
  have hr : 1024 * (t.val / 16) + p.val < 8192 := by have := p.isLt; omega
  have hk : 512 * (t.val % 8) + l.val < 4096 := by have := l.isLt; omega
  have hidx : ((cfg0.win 0).blk t).view.emb (ix2 p l)
      = ix2 (⟨1024 * (t.val / 16) + p.val, hr⟩ : Fin 8192) (⟨512 * (t.val % 8) + l.val, hk⟩ : Fin 4096) := by
    obtain ⟨e0, e1⟩ := index_x t
    funext a; apply Fin.ext
    match a with
    | ⟨0, _⟩ => show win0_0.index t (0 : Fin 2) * 1024 + 1 * p.val = 1024 * (t.val / 16) + p.val; omega
    | ⟨1, _⟩ => show win0_0.index t (1 : Fin 2) * 512 + 1 * l.val = 512 * (t.val % 8) + l.val; omega
  rw [Cert.Lib.nat2_of_lt X hr hk, View.read_apply]
  show X (((cfg0.win 0).blk t).view.emb (ix2 p l)) = _
  rw [hidx]

/-- Entry (q, l) of block t of a 4096 × 4096 array read through the weights' window. -/
theorem read_w (X : (⟨2, ![4096, 4096]⟩ : Shape).Idx → EReal) (t : Fin cfg0.N) (q : Fin 2048) (l : Fin 512) :
    ((cfg0.win 1).blk t).view.read (Elt Ideal) X (ix2 q l)
      = Cert.Lib.nat2 X (2048 * (t.val / 8 % 2) + q.val) (512 * (t.val % 8) + l.val) := by
  have ht : t.val < 128 := lt_of_lt_of_eq t.isLt (show cfg0.N = 128 from N_0)
  have hr : 2048 * (t.val / 8 % 2) + q.val < 4096 := by have := q.isLt; omega
  have hk : 512 * (t.val % 8) + l.val < 4096 := by have := l.isLt; omega
  have hidx : ((cfg0.win 1).blk t).view.emb (ix2 q l)
      = ix2 (⟨2048 * (t.val / 8 % 2) + q.val, hr⟩ : Fin 4096) (⟨512 * (t.val % 8) + l.val, hk⟩ : Fin 4096) := by
    obtain ⟨e0, e1⟩ := index_w t
    funext a; apply Fin.ext
    match a with
    | ⟨0, _⟩ => show win0_1.index t (0 : Fin 2) * 2048 + 1 * q.val = 2048 * (t.val / 8 % 2) + q.val; omega
    | ⟨1, _⟩ => show win0_1.index t (1 : Fin 2) * 512 + 1 * l.val = 512 * (t.val % 8) + l.val; omega
  rw [Cert.Lib.nat2_of_lt X hr hk, View.read_apply]
  show X (((cfg0.win 1).blk t).view.emb (ix2 q l)) = _
  rw [hidx]

/-- Entry (0, q) of block t of a 1 × 4096 array read through the bias window. -/
theorem read_b (X : (⟨2, ![1, 4096]⟩ : Shape).Idx → EReal) (t : Fin cfg0.N) (q : Fin 2048) :
    ((cfg0.win 2).blk t).view.read (Elt Ideal) X (ix2 (0 : Fin 1) q)
      = Cert.Lib.nat2 X 0 (2048 * (t.val / 8 % 2) + q.val) := by
  have ht : t.val < 128 := lt_of_lt_of_eq t.isLt (show cfg0.N = 128 from N_0)
  have hr : 0 < 1 := Nat.one_pos
  have hk : 2048 * (t.val / 8 % 2) + q.val < 4096 := by have := q.isLt; omega
  have hidx : ((cfg0.win 2).blk t).view.emb (ix2 (0 : Fin 1) q)
      = ix2 (⟨0, hr⟩ : Fin 1) (⟨2048 * (t.val / 8 % 2) + q.val, hk⟩ : Fin 4096) := by
    obtain ⟨e0, e1⟩ := index_b t
    funext a; apply Fin.ext
    match a with
    | ⟨0, _⟩ => show win0_2.index t (0 : Fin 2) * 1 + 1 * 0 = 0; omega
    | ⟨1, _⟩ => show win0_2.index t (1 : Fin 2) * 2048 + 1 * q.val = 2048 * (t.val / 8 % 2) + q.val; omega
  rw [Cert.Lib.nat2_of_lt X hr hk, View.read_apply]
  show X (((cfg0.win 2).blk t).view.emb (ix2 (0 : Fin 1) q)) = _
  rw [hidx]

/-! ## The windows, over the arrays the host operations leave -/

variable (m : (ℓ : Loc nD τ sig) → Buf (Elt Ideal) ℓ)

/-- Entry (p, l) of the activations' block at point t. -/
theorem block_x (c : Dev nD) (t : Fin cfg0.N) (p : Fin 1024) (l : Fin 512) :
    iblk m c 0 t (ix2 p l)
      = Cert.Lib.nat2 (a := 8192) (b := 4096) (α := EReal) (V m c main_v56) (1024 * (t.val / 16) + p.val) (512 * (t.val % 8) + l.val) := by
  unfold iblk
  exact read_x (V m c main_v56) t p l

/-- Entry (q, l) of the weights' block at point t. -/
theorem block_w (c : Dev nD) (t : Fin cfg0.N) (q : Fin 2048) (l : Fin 512) :
    iblk m c 1 t (ix2 q l)
      = Cert.Lib.nat2 (a := 4096) (b := 4096) (α := EReal) (V m c main_v57) (2048 * (t.val / 8 % 2) + q.val) (512 * (t.val % 8) + l.val) := by
  unfold iblk
  exact read_w (V m c main_v57) t q l

/-- Entry (0, q) of the bias row's block at point t. -/
theorem block_b (c : Dev nD) (t : Fin cfg0.N) (q : Fin 2048) :
    iblk m c 2 t (ix2 (0 : Fin 1) q)
      = Cert.Lib.nat2 (a := 1) (b := 4096) (α := EReal) (V m c main_v58) 0 (2048 * (t.val / 8 % 2) + q.val) := by
  unfold iblk
  exact read_b (V m c main_v58) t q

end Cert.Bfp

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.KernelValue.lean ====
/-
  What the kernel leaves in its result array, entry by entry.

  The result block holding entry (P, Q) is filled by a run of eight consecutive grid points, one per chunk of 512
  columns of the contraction axis. The first point of the run stores the bias row and adds its chunk's product, each
  later point adds its chunk's product to what the block held. So after the run the entry is

      bias[Q] + Σ_{s < 8} Σ_{l < 512} xq[P, 512·s + l] · wq[Q, 512·s + l],

  and the eight chunks of 512 columns are exactly the 4096 columns, each once: the double sum is Σ_{k < 4096}
  xq[P, k] · wq[Q, k]. Only associativity and commutativity of addition are used, so this holds on the extended reals.
-/
import proofs.«166685_j4698694222253_2_alg».proof.Proof.Gen.KernelIdeal.Value
import proofs.«166685_j4698694222253_2_alg».proof.Proof.KernelBody
import proofs.«166685_j4698694222253_2_alg».proof.Proof.KernelBlocks
import proofs.«166685_j4698694222253_2_alg».proof.Proof.LibBlockSum

noncomputable section

namespace Cert.Bfp

open Idealize.ShloMosaic Idealize.ShloMosaic.ValueIdx Idealize.ShloMosaic.TcCoe
open Cert.KernelIdeal Cert.KernelIdeal.Gen

variable (m : (ℓ : Loc nD τ sig) → Buf (Elt Ideal) ℓ)

/-- The quantised activations as staged, read at a row and a column number. -/
abbrev stagedX (c : Dev nD) : ℕ → ℕ → EReal := Cert.Lib.nat2 (a := 8192) (b := 4096) (α := EReal) (V m c main_v56)
/-- The quantised weights as staged, read at a row and a column number. -/
abbrev stagedW (c : Dev nD) : ℕ → ℕ → EReal := Cert.Lib.nat2 (a := 4096) (b := 4096) (α := EReal) (V m c main_v57)
/-- The bias row as staged, read at a row and a column number. -/
abbrev stagedB (c : Dev nD) : ℕ → ℕ → EReal := Cert.Lib.nat2 (a := 1) (b := 4096) (α := EReal) (V m c main_v58)

/-- The product of grid point `n`'s chunk at place `y` of the block: row-block n / 16, column-block (n / 8) % 2, chunk n % 8. -/
def chunkTerm (c : Dev nD) (n : ℕ) (y : S1024x2048.Idx) : EReal :=
  ∑ l : Fin 512, stagedX m c (1024 * (n / 16) + (y 0).val) (512 * (n % 8) + l.val)
    * stagedW m c (2048 * (n / 8 % 2) + (y 1).val) (512 * (n % 8) + l.val)

/-- The bias entry grid point `n` would store at place `y` of the block. -/
def biasTerm (c : Dev nD) (n : ℕ) (y : S1024x2048.Idx) : EReal :=
  stagedB m c 0 (2048 * (n / 8 % 2) + (y 1).val)

/-- A run's first point: the bias entry plus the chunk's product. -/
theorem reset_apply (c : Dev nD) (n : ℕ) (h : n < cfg0.N) (y : S1024x2048.Idx) :
    Value.reset3 m c n h y = biasTerm m c n y + chunkTerm m c n y := by
  obtain ⟨p, q, rfl⟩ : ∃ (p : Fin 1024) (q : Fin 2048), y = ix2 p q := ⟨y 0, y 1, eq_ix2 y⟩
  have h1 : k0_pay1 (F := Ideal) (iblk m c 2 ⟨n, h⟩) (ix2 p q) = biasTerm m c n (ix2 p q) :=
    (bias_rows_apply (iblk m c 2 ⟨n, h⟩) p q).trans (block_b m c ⟨n, h⟩ q)
  have hx : ∀ l : Fin 512, iblk m c 0 ⟨n, h⟩ (ix2 p l) = stagedX m c (1024 * (n / 16) + p.val) (512 * (n % 8) + l.val) :=
    fun l => block_x m c ⟨n, h⟩ p l
  have hw : ∀ l : Fin 512, iblk m c 1 ⟨n, h⟩ (ix2 q l) = stagedW m c (2048 * (n / 8 % 2) + q.val) (512 * (n % 8) + l.val) :=
    fun l => block_w m c ⟨n, h⟩ q l
  exact (chunk_update_apply (k0_pay1 (iblk m c 2 ⟨n, h⟩)) (iblk m c 0 ⟨n, h⟩) (iblk m c 1 ⟨n, h⟩) p q).trans
    (congrArg₂ (fun u v : EReal => u + v) h1 (Finset.sum_congr rfl fun l _ => congrArg₂ (fun u v : EReal => u * v) (hx l) (hw l)))

/-- A later point of a run: what the block held plus the chunk's product. -/
theorem step_apply (c : Dev nD) (n : ℕ) (h : n < cfg0.N) (acc : S1024x2048.Idx → EReal) (y : S1024x2048.Idx) :
    Value.step3 m c n h acc y = acc y + chunkTerm m c n y := by
  obtain ⟨p, q, rfl⟩ : ∃ (p : Fin 1024) (q : Fin 2048), y = ix2 p q := ⟨y 0, y 1, eq_ix2 y⟩
  have hx : ∀ l : Fin 512, iblk m c 0 ⟨n, h⟩ (ix2 p l) = stagedX m c (1024 * (n / 16) + p.val) (512 * (n % 8) + l.val) :=
    fun l => block_x m c ⟨n, h⟩ p l
  have hw : ∀ l : Fin 512, iblk m c 1 ⟨n, h⟩ (ix2 q l) = stagedW m c (2048 * (n / 8 % 2) + q.val) (512 * (n % 8) + l.val) :=
    fun l => block_w m c ⟨n, h⟩ q l
  exact (chunk_update_apply acc (iblk m c 0 ⟨n, h⟩) (iblk m c 1 ⟨n, h⟩) p q).trans
    (congrArg (fun v : EReal => acc (ix2 p q) + v) (Finset.sum_congr rfl fun l _ => congrArg₂ (fun u v : EReal => u * v) (hx l) (hw l)))

/-- What run number `r` (row-block r / 2, column-block r % 2) leaves at place `y` of its block: the bias entry plus the whole
    contraction, the eight chunks regrouped into one sum over the 4096 columns. -/
theorem run_fold_apply (c : Dev nD) (r : ℕ) (hr : 8 * r + 7 < cfg0.N) (y : S1024x2048.Idx) :
    Pipeline.accAt (Value.reset3 m c) (Value.step3 m c) (8 * r) 7 hr y
      = stagedB m c 0 (2048 * (r % 2) + (y 1).val)
        + ∑ k : Fin 4096, stagedX m c (1024 * (r / 2) + (y 0).val) k.val * stagedW m c (2048 * (r % 2) + (y 1).val) k.val := by
  rw [Pipeline.accAt_add_apply (N := cfg0.N) (ι := S1024x2048.Idx) (β := EReal) (Value.reset3 m c) (Value.step3 m c)
    (biasTerm m c (8 * r)) (chunkTerm m c) (8 * r) 7 (fun h y => reset_apply m c (8 * r) h y)
    (fun n h acc y _ _ => step_apply m c n h acc y) 7 le_rfl hr y]
  have hb : biasTerm m c (8 * r) y = stagedB m c 0 (2048 * (r % 2) + (y 1).val) := by
    unfold biasTerm
    exact congrArg (stagedB m c 0) (by omega)
  have hs : ∀ s ∈ Finset.range (7 + 1), chunkTerm m c (8 * r + s) y
      = ∑ l : Fin 512, (fun k => stagedX m c (1024 * (r / 2) + (y 0).val) k * stagedW m c (2048 * (r % 2) + (y 1).val) k) (512 * s + l.val) := by
    intro s hs
    have hs8 : s < 8 := by simpa using hs
    unfold chunkTerm
    refine Finset.sum_congr rfl fun l _ => ?_
    show stagedX m c (1024 * ((8 * r + s) / 16) + (y 0).val) (512 * ((8 * r + s) % 8) + l.val)
        * stagedW m c (2048 * ((8 * r + s) / 8 % 2) + (y 1).val) (512 * ((8 * r + s) % 8) + l.val)
      = stagedX m c (1024 * (r / 2) + (y 0).val) (512 * s + l.val) * stagedW m c (2048 * (r % 2) + (y 1).val) (512 * s + l.val)
    rw [show 1024 * ((8 * r + s) / 16) + (y 0).val = 1024 * (r / 2) + (y 0).val from by omega,
      show 512 * ((8 * r + s) % 8) + l.val = 512 * s + l.val from by omega,
      show 2048 * ((8 * r + s) / 8 % 2) + (y 1).val = 2048 * (r % 2) + (y 1).val from by omega]
  rw [hb, Finset.sum_congr rfl hs]
  exact congrArg (fun v : EReal => stagedB m c 0 (2048 * (r % 2) + (y 1).val) + v)
    (Cert.Lib.sum_blocks 8 512 (fun k => stagedX m c (1024 * (r / 2) + (y 0).val) k * stagedW m c (2048 * (r % 2) + (y 1).val) k))

/-- The kernel's result array at entry (P, Q): the bias entry plus the contraction over all 4096 columns. -/
theorem kernel_result_apply (c : Dev nD) (P : Fin 8192) (Q : Fin 4096) :
    Value.G3 m c (ix2 P Q) = stagedB m c 0 Q.val + ∑ k : Fin 4096, stagedX m c P.val k.val * stagedW m c Q.val k.val := by
  have hN : cfg0.N = 128 := N_0
  have hP := P.isLt
  have hQ := Q.isLt
  have hrun : Value.run3Of (ix2 P Q) = 2 * (P.val / 1024) + Q.val / 2048 := by
    show 2 * (P.val / 1024 - 0) + 1 * (Q.val / 2048 - 0) = _
    omega
  have hloc0 : (Value.loc3Of (ix2 P Q) 0).val = P.val % 1024 := rfl
  have hloc1 : (Value.loc3Of (ix2 P Q) 1).val = Q.val % 2048 := rfl
  have hbox : 8 * Value.run3Of (ix2 P Q) + 7 < cfg0.N := by rw [hrun, hN]; omega
  have hbox' : 8 * (2 * (P.val / 1024) + Q.val / 2048) + 7 < cfg0.N := by rw [hN]; omega
  have hG : Value.G3 m c (ix2 P Q)
      = Pipeline.accAt (Value.reset3 m c) (Value.step3 m c) (8 * Value.run3Of (ix2 P Q)) 7 hbox (Value.loc3Of (ix2 P Q)) := by
    unfold Value.G3
    exact dif_pos hbox
  have move : ∀ (b b' : ℕ) (h : b + 7 < cfg0.N) (h' : b' + 7 < cfg0.N), b = b' →
      Pipeline.accAt (Value.reset3 m c) (Value.step3 m c) b 7 h = Pipeline.accAt (Value.reset3 m c) (Value.step3 m c) b' 7 h' := by
    intro b b' h h' hb; subst hb; rfl
  have key := run_fold_apply m c (2 * (P.val / 1024) + Q.val / 2048) hbox' (Value.loc3Of (ix2 P Q))
  rw [hloc0, hloc1,
    show 1024 * ((2 * (P.val / 1024) + Q.val / 2048) / 2) + P.val % 1024 = P.val from by omega,
    show 2048 * ((2 * (P.val / 1024) + Q.val / 2048) % 2) + Q.val % 2048 = Q.val from by omega] at key
  rw [hG, move _ _ hbox hbox' (by rw [hrun])]
  exact key

end Cert.Bfp

end
-- ==== Proof.Bridge.lean ====
/-
  The two programs compute the same array.

  Both quantise `x` and `weight` by one and the same chain of operations, so from launch contents that agree on the
  arguments the quantised activations xq and the quantised weights wq are the same two arrays on both sides (the kernel
  program narrows them to bf16 before staging them, which over the extended reals changes nothing). The reference's
  entry (P, Q) is then (Σ_k xq[P, k] · wq[Q, k]) + bias[Q]; the kernel's, accumulated chunk by chunk on top of the bias, is
  bias[Q] + Σ_k xq[P, k] · wq[Q, k]. Addition of extended reals is commutative: the two entries are equal, with no
  assumption on the inputs — the quantisation chain may produce any extended real and is never opened.
-/
import proofs.«166685_j4698694222253_2_alg».proof.Proof.QuantX
import proofs.«166685_j4698694222253_2_alg».proof.Proof.QuantW
import proofs.«166685_j4698694222253_2_alg».proof.Proof.RefTail
import proofs.«166685_j4698694222253_2_alg».proof.Proof.RefTailValue
import proofs.«166685_j4698694222253_2_alg».proof.Proof.KernelWindows
import proofs.«166685_j4698694222253_2_alg».proof.Proof.KernelValue

noncomputable section

namespace Cert.Bfp

open Idealize.ShloMosaic Idealize.ShloMosaic.StableHlo Idealize.ShloMosaic.ValueIdx Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The activations the kernel stages are the reference's quantised activations. -/
theorem staged_x (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (P : Fin 8192) (k : Fin 4096) :
    Cert.KernelIdeal.Gen.V m c Cert.KernelIdeal.main_v56 (ix2 P k)
      = after Cert.ReferenceIdeal.ValueP.ops (launchContents m' c) (Proc.devRef .tc Cert.ReferenceIdeal.main_v27) (ix2 P k) := by
  rw [window_x m c, truncf_apply]
  exact (congrFun (quantized_x_same (F := Ideal) (launchContents m' c) (fun b => m (c, b))
    (m ((c.tc : Thread Cert.KernelIdeal.nD Cert.KernelIdeal.τ).loc Cert.KernelIdeal.main_arg0)) h0 rfl) (ix2 P k)).symm

/-- The weights the kernel stages are the reference's quantised weights. -/
theorem staged_w (c : Dev Cert.KernelIdeal.nD) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (Q : Fin 4096) (k : Fin 4096) :
    Cert.KernelIdeal.Gen.V m c Cert.KernelIdeal.main_v57 (ix2 Q k)
      = after Cert.ReferenceIdeal.ValueP.ops (launchContents m' c) (Proc.devRef .tc Cert.ReferenceIdeal.main_v55) (ix2 Q k) := by
  rw [window_w m c, truncf_apply]
  exact (congrFun (quantized_w_same (F := Ideal) (launchContents m' c) (fun b => m (c, b))
    (m ((c.tc : Thread Cert.KernelIdeal.nD Cert.KernelIdeal.τ).loc Cert.KernelIdeal.main_arg1)) h1 rfl) (ix2 Q k)).symm

/-- The bias row the kernel stages is the reference's bias, as one row. -/
theorem staged_b (c : Dev Cert.KernelIdeal.nD) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (Q : Fin 4096) :
    Cert.KernelIdeal.Gen.V m c Cert.KernelIdeal.main_v58 (ix2 (0 : Fin 1) Q)
      = shapeCast ⟨2, ![1, 4096]⟩ (launchContents m' c (Proc.devRef .tc Cert.ReferenceIdeal.main_arg2)) Cert.KernelIdeal.Gen.shapeCasts_S4096_S1x4096 (ix2 (0 : Fin 1) Q) := by
  rw [window_b m c]
  exact congrArg (fun b : (⟨1, ![4096]⟩ : Shape).Idx → EReal => shapeCast ⟨2, ![1, 4096]⟩ b Cert.KernelIdeal.Gen.shapeCasts_S4096_S1x4096 (ix2 (0 : Fin 1) Q)) h2.symm

/-- Entry (P, Q) of the reference's result is entry (P, Q) of the kernel's. -/
theorem result_apply (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (P : Fin 8192) (Q : Fin 4096) :
    after Cert.ReferenceIdeal.ValueP.ops (launchContents m' c) (Proc.devRef .tc Cert.ReferenceIdeal.main_v60) (ix2 P Q)
      = Cert.KernelIdeal.Value.G3 m c (ix2 P Q) := by
  have eb : stagedB m c 0 Q.val = Cert.KernelIdeal.Gen.V m c Cert.KernelIdeal.main_v58 (ix2 (0 : Fin 1) Q) :=
    Cert.Lib.nat2_val (a := 1) (b := 4096) (α := EReal) (Cert.KernelIdeal.Gen.V m c Cert.KernelIdeal.main_v58) (0 : Fin 1) Q
  have ex : ∀ k : Fin 4096, stagedX m c P.val k.val = Cert.KernelIdeal.Gen.V m c Cert.KernelIdeal.main_v56 (ix2 P k) :=
    fun k => Cert.Lib.nat2_val (a := 8192) (b := 4096) (α := EReal) (Cert.KernelIdeal.Gen.V m c Cert.KernelIdeal.main_v56) P k
  have ew : ∀ k : Fin 4096, stagedW m c Q.val k.val = Cert.KernelIdeal.Gen.V m c Cert.KernelIdeal.main_v57 (ix2 Q k) :=
    fun k => Cert.Lib.nat2_val (a := 4096) (b := 4096) (α := EReal) (Cert.KernelIdeal.Gen.V m c Cert.KernelIdeal.main_v57) Q k
  rw [kernel_result_apply m c P Q, eb, Finset.sum_congr rfl (fun k _ => by rw [ex k, ew k])]
  rw [ref_result (launchContents m' c)]
  rw [ref_tail_apply _ _ _ Cert.KernelIdeal.Gen.shapeCasts_S4096_S1x4096 P Q]
  rw [add_comm]
  exact congrArg₂ (fun u v : EReal => u + v) (staged_b m m' c h2 Q).symm
    (Finset.sum_congr rfl fun k _ => by rw [staged_x m m' c h0 P k, staged_w m m' c h1 Q k])

/-- From launch contents agreeing on the three arguments, the reference's result array is the kernel's. -/
theorem result_eq (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    after Cert.ReferenceIdeal.ValueP.ops (launchContents m' c) (Proc.devRef .tc Cert.ReferenceIdeal.main_v60) = Cert.KernelIdeal.Value.G3 m c := by
  refine funext (α := (⟨2, ![8192, 4096]⟩ : Shape).Idx) (β := fun _ => EReal) fun i => ?_
  obtain ⟨P, Q, rfl⟩ : ∃ (P : Fin 8192) (Q : Fin 4096), i = ix2 P Q := ⟨i 0, i 1, eq_ix2 i⟩
  exact result_apply m m' c h0 h1 h2 P Q

end Cert.Bfp

end
-- ==== Proof.lean ====
/-
  A linear layer over block-floating-point operands: y = q(x) · q(weight)ᵀ + bias, where q shares one power-of-two scale
  among each group of 32 consecutive entries.

  The kernel program quantises `x` and `weight` with ordinary array operations, exactly as the reference does, and gives
  the quantised arrays (narrowed to bf16) and the bias row to a tiled matrix-product kernel over a grid of 8 row-blocks ×
  2 column-blocks × 8 chunks of the contraction axis. Each result block of 1024 × 2048 entries stays resident while its 8
  chunks are visited: the first chunk stores the bias row in it, and every chunk adds its partial product. The reference
  takes one whole product and adds the bias afterwards.

  Over the extended reals the two agree entry by entry: the quantisation is the same function on both sides (never
  opened here), a change of float format is the identity, the eight partial products of 512 columns add up to the product
  over all 4096 columns by regrouping a finite sum, and the bias is added first on one side and last on the other, which
  commutativity of addition allows. No distributivity or cancellation is needed, so the precondition that the inputs are
  finite is never used.

  The frames: the kernel's two programs by their frame certificates; the reference, a straight line of array operations,
  terminates with every buffer at the fold of its operations, and none of them writes an argument. The idealisation
  rewrote nothing in the kernel, so there is nothing to preserve.
-/
import proofs.«166685_j4698694222253_2_alg».proof.Defs
import proofs.«166685_j4698694222253_2_alg».proof.Proof.Gen.Kernel.Frame
import proofs.«166685_j4698694222253_2_alg».proof.Proof.Gen.KernelIdeal.Value
import proofs.«166685_j4698694222253_2_alg».proof.Proof.Gen.Pre_finite_inputs
import proofs.«166685_j4698694222253_2_alg».proof.Proof.RefRun
import proofs.«166685_j4698694222253_2_alg».proof.Proof.RefTail
import proofs.«166685_j4698694222253_2_alg».proof.Proof.Bridge
import Idealize.ShloMosaic.Adequacy
import Idealize.ShloMosaic.Init

noncomputable section

namespace Cert.Proof

open Idealize.ShloMosaic Idealize.ShloMosaic.StableHlo Idealize.SL.Sem

/-- The idealised kernel program runs and leaves its arguments as launched. -/
theorem frame_KernelIdeal : frame_KernelIdeal := fun m ρ _ =>
  (θ_run Cert.KernelIdeal.defs _ _).mono (fun _ h c => (h c).2) (Cert.KernelIdeal.Value.run (F := Ideal) m ρ)

/-- The reference runs, and no operation of it writes an argument. -/
theorem frame_ReferenceIdeal : frame_ReferenceIdeal := fun m ρ _ =>
  (θ_run Cert.ReferenceIdeal.defs _ _).mono
    (fun _ h c => ⟨(h c Cert.ReferenceIdeal.main_arg0).trans (Cert.Bfp.ref_arg0 _), (h c Cert.ReferenceIdeal.main_arg1).trans (Cert.Bfp.ref_arg1 _),
      (h c Cert.ReferenceIdeal.main_arg2).trans (Cert.Bfp.ref_arg2 _)⟩)
    (Cert.ReferenceIdeal.ValueP.run (F := Ideal) m ρ)

/-- Both idealised programs end with the same result array: the kernel's accumulated blocks and the reference's whole
    product plus bias are one function of the arguments. -/
theorem algebraic_KernelIdeal_ReferenceIdeal : algebraic_KernelIdeal_ReferenceIdeal := by
  intro m ρ m' ρ' _ hagree
  refine ⟨fun c => Cert.KernelIdeal.Value.G3 (F := Ideal) m c, Cert.KernelIdeal.Value.run (F := Ideal) m ρ, ?_⟩
  refine (θ_run Cert.ReferenceIdeal.defs _ _).mono
    (fun _ h c => ⟨?_, (h c Cert.ReferenceIdeal.main_arg0).trans (Cert.Bfp.ref_arg0 _), (h c Cert.ReferenceIdeal.main_arg1).trans (Cert.Bfp.ref_arg1 _),
      (h c Cert.ReferenceIdeal.main_arg2).trans (Cert.Bfp.ref_arg2 _)⟩)
    (Cert.ReferenceIdeal.ValueP.run (F := Ideal) m' ρ')
  exact (h c Cert.ReferenceIdeal.main_v60).trans (Cert.Bfp.result_eq m m' c (hagree c).1 (hagree c).2.1 (hagree c).2.2)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
